-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S65536x64 : Shape := ⟨2, ![65536, 64]⟩
abbrev S5x64 : Shape := ⟨2, ![5, 64]⟩
abbrev S2048x2048x5 : Shape := ⟨3, ![2048, 2048, 5]⟩
abbrev S2048x2048 : Shape := ⟨2, ![2048, 2048]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_
  bcast_S_S5x64 : S_.BroadcastsInDim S5x64 (![] : Fin 0 → Fin S5x64.rank)
  reducesTo_S5x64_S_d0_1 : S5x64.ReducesTo [0, 1] S_

variable [Facts]

def fn {F : FTy → Type} [FloatOps F] (main_arg0 : FVec F S2048x128 .f32) (main_arg1 : FVec F S65536x64 .f32) (main_arg2 : FVec F S5x64 .f32) (main_arg3 : IVec S2048x2048x5 32) (main_arg4 : IVec S2048x2048 32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  let main_v9 : FVec F S5x64 .f32 := Host.absf main_arg2
  let main_cst_2 : FVec F S_ .f32 := constant S_ .f32 0x7F800000#32
  let main_v10 : FVec F S5x64 .f32 := broadcastInDim S5x64 ![] bcast_S_S5x64 main_cst_2
  let main_v11 : IVec S5x64 1 := cmpf .olt main_v9 main_v10
  let main_c_3 : IVec S_ 1 := constantI S_ 1 1#1
  let main_v12 : IVec S_ 1 := (fun x v => Host.reduce IntOp.andi x v reducesTo_S5x64_S_d0_1 h_S_) main_v11 main_c_3
  let main_v13 : IVec S_ 1 := andi main_v8 main_v12
  main_v13
-- ==== Kernel.lean ====
abbrev S2048x128 : Shape := ⟨2, ![2048, 128]⟩
abbrev S65536x64 : Shape := ⟨2, ![65536, 64]⟩
abbrev S5x64 : Shape := ⟨2, ![5, 64]⟩
abbrev S2048x2048x5 : Shape := ⟨3, ![2048, 2048, 5]⟩
abbrev S2048x2048 : Shape := ⟨2, ![2048, 2048]⟩
abbrev S65536x5 : Shape := ⟨2, ![65536, 5]⟩
abbrev S8192x64 : Shape := ⟨2, ![8192, 64]⟩
abbrev S8192x5 : Shape := ⟨2, ![8192, 5]⟩
abbrev S64x5 : Shape := ⟨2, ![64, 5]⟩
abbrev S_ : Shape := ⟨0, ![]⟩
abbrev S5 : Shape := ⟨1, ![5]⟩
abbrev S1x1x5 : Shape := ⟨3, ![1, 1, 5]⟩
abbrev S2048x2048x5x1 : Shape := ⟨4, ![2048, 2048, 5, 1]⟩
abbrev S2048x2048x5x2 : Shape := ⟨4, ![2048, 2048, 5, 2]⟩
abbrev S5x2048x2048 : Shape := ⟨3, ![5, 2048, 2048]⟩
abbrev S5x256x2048 : Shape := ⟨3, ![5, 256, 2048]⟩
abbrev S256x2048 : Shape := ⟨2, ![256, 2048]⟩

abbrev nBuf : Space → Nat
  | .hbm => 38
  | .vmem => 11
  | .smem => 0
  | _ => 0

abbrev bufTy : (tb : Table) → Fin (tcTables nBuf tb) → BufTy
  | .hbm, ⟨0, _⟩ => ⟨S2048x128, .f32⟩
  | .hbm, ⟨1, _⟩ => ⟨S65536x64, .f32⟩
  | .hbm, ⟨2, _⟩ => ⟨S5x64, .f32⟩
  | .hbm, ⟨3, _⟩ => ⟨S2048x2048x5, .i32⟩
  | .hbm, ⟨4, _⟩ => ⟨S2048x2048, .i32⟩
  | .hbm, ⟨5, _⟩ => ⟨S65536x5, .f32⟩
  | .hbm, ⟨6, _⟩ => ⟨S_, .i32⟩
  | .hbm, ⟨7, _⟩ => ⟨S2048x2048x5, .i32⟩
  | .hbm, ⟨8, _⟩ => ⟨S2048x2048x5, .i1⟩
  | .hbm, ⟨9, _⟩ => ⟨S_, .i32⟩
  | .hbm, ⟨10, _⟩ => ⟨S_, .i32⟩
  | .hbm, ⟨11, _⟩ => ⟨S2048x2048x5, .i32⟩
  | .hbm, ⟨12, _⟩ => ⟨S2048x2048x5, .i32⟩
  | .hbm, ⟨13, _⟩ => ⟨S5, .i32⟩
  | .hbm, ⟨14, _⟩ => ⟨S1x1x5, .i32⟩
  | .hbm, ⟨15, _⟩ => ⟨S_, .i32⟩
  | .hbm, ⟨16, _⟩ => ⟨S2048x2048x5, .i32⟩
  | .hbm, ⟨17, _⟩ => ⟨S2048x2048x5, .i1⟩
  | .hbm, ⟨18, _⟩ => ⟨S_, .i32⟩
  | .hbm, ⟨19, _⟩ => ⟨S2048x2048x5, .i32⟩
  | .hbm, ⟨20, _⟩ => ⟨S2048x2048x5, .i32⟩
  | .hbm, ⟨21, _⟩ => ⟨S2048x2048x5, .i32⟩
  | .hbm, ⟨22, _⟩ => ⟨S_, .i32⟩
  | .hbm, ⟨23, _⟩ => ⟨S1x1x5, .i32⟩
  | .hbm, ⟨24, _⟩ => ⟨S1x1x5, .i1⟩
  | .hbm, ⟨25, _⟩ => ⟨S_, .i32⟩
  | .hbm, ⟨26, _⟩ => ⟨S1x1x5, .i32⟩
  | .hbm, ⟨27, _⟩ => ⟨S1x1x5, .i32⟩
  | .hbm, ⟨28, _⟩ => ⟨S1x1x5, .i32⟩
  | .hbm, ⟨29, _⟩ => ⟨S2048x2048x5, .i32⟩
  | .hbm, ⟨30, _⟩ => ⟨S2048x2048x5x1, .i32⟩
  | .hbm, ⟨31, _⟩ => ⟨S2048x2048x5x1, .i32⟩
  | .hbm, ⟨32, _⟩ => ⟨S2048x2048x5x2, .i32⟩
  | .hbm, ⟨33, _⟩ => ⟨S2048x2048x5, .f32⟩
  | .hbm, ⟨34, _⟩ => ⟨S2048x2048x5, .f32⟩
  | .hbm, ⟨35, _⟩ => ⟨S2048x2048x5, .f32⟩
  | .hbm, ⟨36, _⟩ => ⟨S5x2048x2048, .f32⟩
  | .hbm, ⟨37, _⟩ => ⟨S2048x2048, .f32⟩
  | .local _ .vmem, ⟨0, _⟩ => ⟨S8192x64, .f32⟩
  | .local _ .vmem, ⟨1, _⟩ => ⟨S8192x64, .f32⟩
  | .local _ .vmem, ⟨2, _⟩ => ⟨S5x64, .f32⟩
  | .local _ .vmem, ⟨3, _⟩ => ⟨S8192x5, .f32⟩
  | .local _ .vmem, ⟨4, _⟩ => ⟨S8192x5, .f32⟩
  | .local _ .vmem, ⟨5, _⟩ => ⟨S5x256x2048, .f32⟩
  | .local _ .vmem, ⟨6, _⟩ => ⟨S5x256x2048, .f32⟩
  | .local _ .vmem, ⟨7, _⟩ => ⟨S256x2048, .i32⟩
  | .local _ .vmem, ⟨8, _⟩ => ⟨S256x2048, .i32⟩
  | .local _ .vmem, ⟨9, _⟩ => ⟨S256x2048, .f32⟩
  | .local _ .vmem, ⟨10, _⟩ => ⟨S256x2048, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S5x64_S5x64_0_0 : ∀ a, (![0, 0] : Fin 2 → Nat) a + S5x64.size a ≤ S5x64.size a
  h_S5x64 : 0 < S5x64.numel
  transposes_S5x64_p1_0_S64x5 : S5x64.Transposes [1, 0] S64x5
  inb_S8192x5_S8192x5_0_0 : ∀ a, (![0, 0] : Fin 2 → Nat) a + S8192x5.size a ≤ S8192x5.size a
  h_S8192x5 : 0 < S8192x5.numel
  bcast_S_S2048x2048x5 : S_.BroadcastsInDim S2048x2048x5 (![] : Fin 0 → Fin S2048x2048x5.rank)
  bcast_S5_S1x1x5_2 : S5.BroadcastsInDim S1x1x5 (![2] : Fin 1 → Fin S1x1x5.rank)
  bcast_S_S1x1x5 : S_.BroadcastsInDim S1x1x5 (![] : Fin 0 → Fin S1x1x5.rank)
  bcast_S1x1x5_S2048x2048x5_0_1_2 : S1x1x5.BroadcastsInDim S2048x2048x5 (![0, 1, 2] : Fin 3 → Fin S2048x2048x5.rank)
  bcast_S2048x2048x5_S2048x2048x5x1_0_1_2 : S2048x2048x5.BroadcastsInDim S2048x2048x5x1 (![0, 1, 2] : Fin 3 → Fin S2048x2048x5x1.rank)
  concatenates_S2048x2048x5x1_S2048x2048x5x1_S2048x2048x5x2_d3 : Shape.Concatenates [S2048x2048x5x1, S2048x2048x5x1] S2048x2048x5x2 3
  transposes_S2048x2048x5_S5x2048x2048_2_0_1 : S2048x2048x5.Transposes [2, 0, 1] S5x2048x2048
  inb_S5x256x2048_S5x256x2048_0_0_0 : ∀ a, (![0, 0, 0] : Fin 3 → Nat) a + S5x256x2048.size a ≤ S5x256x2048.size a
  h_S5x256x2048 : 0 < S5x256x2048.numel
  shapeCasts_S5x256x2048_S5x256x2048 : S5x256x2048.ShapeCasts S5x256x2048
  reduces_S5x256x2048_S256x2048 : S5x256x2048.Reduces [0] S256x2048
  inb_S256x2048_S256x2048_0_0 : ∀ a, (![0, 0] : Fin 2 → Nat) a + S256x2048.size a ≤ S256x2048.size a
  h_S256x2048 : 0 < S256x2048.numel
  dot_S8192x64_S64x5_S8192x5_1_0_0_1_n_n_wf : DotDims.WF S8192x64 S64x5 S8192x5 [1] [0] [0] [1] [] []
  gather_S65536x5_S2048x2048x5x2_S2048x2048x5_n_01_n_n_01_3_11_wf : GatherDims.WF S65536x5 S2048x2048x5x2 S2048x2048x5 [] [0, 1] [] [0, 1] [] 3 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S65536x64.size a
  hwx0_0 : ∀ i : grid0.Coords, EltTy.bits .f32 = 32 ∨ (Rect.block (s := S65536x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .f32 = 32 ∨ (Rect.block (s := S5x64) S5x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x5.size a ≤ S65536x5.size a
  hwx0_2 : ∀ i : grid0.Coords, EltTy.bits .f32 = 32 ∨ (Rect.block (s := S65536x5) S8192x5.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5x256x2048.size a ≤ S5x2048x2048.size a
  hwx1_0 : ∀ i : grid1.Coords, EltTy.bits .f32 = 32 ∨ (Rect.block (s := S5x2048x2048) S5x256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S2048x2048.size a
  hwx1_1 : ∀ i : grid1.Coords, EltTy.bits .i32 = 32 ∨ (Rect.block (s := S2048x2048) S256x2048.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S2048x2048.size a
  hwx1_2 : ∀ i : grid1.Coords, EltTy.bits .f32 = 32 ∨ (Rect.block (s := S2048x2048) S256x2048.size (cc1_transform_2 i) (hinb1_2 i)).WholeWords (EltTy.packing .f32)

variable [Facts₀]

def dot_S8192x64_S64x5_S8192x5_1_0_0_1_n_n : DotDims S8192x64 S64x5 S8192x5 where
  lhsContracting := [1]
  rhsContracting := [0]
  lhsNonContracting := [0]
  rhsNonContracting := [1]
  lhsBatch := []
  rhsBatch := []
  wf := dot_S8192x64_S64x5_S8192x5_1_0_0_1_n_n_wf
def gather_S65536x5_S2048x2048x5x2_S2048x2048x5_n_01_n_n_01_3_11 : GatherDims S65536x5 S2048x2048x5x2 S2048x2048x5 where
  offsetDims := []
  collapsedSliceDims := [0, 1]
  operandBatchingDims := []
  startIndicesBatchingDims := []
  startIndexMap := [0, 1]
  indexVectorDim := 3
  sliceSizes := ![1, 1]
  wf := gather_S65536x5_S2048x2048x5x2_S2048x2048x5_n_01_n_n_01_3_11_wf

abbrev win0_0 : Pipeline.Window sig grid0 :=
  Pipeline.Window.ofSpec (Memref.whole main_arg1) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S5x256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S256x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2048x128 : Shape := ⟨2, ![2048, 128]⟩
abbrev S65536x64 : Shape := ⟨2, ![65536, 64]⟩
abbrev S5x64 : Shape := ⟨2, ![5, 64]⟩
abbrev S2048x2048x5 : Shape := ⟨3, ![2048, 2048, 5]⟩
abbrev S2048x2048 : Shape := ⟨2, ![2048, 2048]⟩
abbrev S65536x5 : Shape := ⟨2, ![65536, 5]⟩
abbrev S_ : Shape := ⟨0, ![]⟩
abbrev S5 : Shape := ⟨1, ![5]⟩
abbrev S1x1x5 : Shape := ⟨3, ![1, 1, 5]⟩
abbrev S2048x2048x5x1 : Shape := ⟨4, ![2048, 2048, 5, 1]⟩
abbrev S2048x2048x5x2 : Shape := ⟨4, ![2048, 2048, 5, 2]⟩

abbrev nBuf : Space → Nat
  | .hbm => 65
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S65536x64, .f32⟩
  | .hbm, ⟨2, _⟩ => ⟨S5x64, .f32⟩
  | .hbm, ⟨3, _⟩ => ⟨S2048x2048x5, .i32⟩
  | .hbm, ⟨4, _⟩ => ⟨S2048x2048, .i32⟩
  | .hbm, ⟨5, _⟩ => ⟨S65536x5, .f32⟩
  | .hbm, ⟨6, _⟩ => ⟨S_, .i32⟩
  | .hbm, ⟨7, _⟩ => ⟨S2048x2048x5, .i32⟩
  | .hbm, ⟨8, _⟩ => ⟨S2048x2048x5, .i1⟩
  | .hbm, ⟨9, _⟩ => ⟨S_, .i32⟩
  | .hbm, ⟨10, _⟩ => ⟨S_, .i32⟩
  | .hbm, ⟨11, _⟩ => ⟨S2048x2048x5, .i32⟩
  | .hbm, ⟨12, _⟩ => ⟨S2048x2048x5, .i32⟩
  | .hbm, ⟨13, _⟩ => ⟨S5, .i32⟩
  | .hbm, ⟨14, _⟩ => ⟨S1x1x5, .i32⟩
  | .hbm, ⟨15, _⟩ => ⟨S_, .i32⟩
  | .hbm, ⟨16, _⟩ => ⟨S2048x2048x5, .i32⟩
  | .hbm, ⟨17, _⟩ => ⟨S2048x2048x5, .i1⟩
  | .hbm, ⟨18, _⟩ => ⟨S_, .i32⟩
  | .hbm, ⟨19, _⟩ => ⟨S2048x2048x5, .i32⟩
  | .hbm, ⟨20, _⟩ => ⟨S2048x2048x5, .i32⟩
  | .hbm, ⟨21, _⟩ => ⟨S2048x2048x5, .i32⟩
  | .hbm, ⟨22, _⟩ => ⟨S_, .i32⟩
  | .hbm, ⟨23, _⟩ => ⟨S1x1x5, .i32⟩
  | .hbm, ⟨24, _⟩ => ⟨S1x1x5, .i1⟩
  | .hbm, ⟨25, _⟩ => ⟨S_, .i32⟩
  | .hbm, ⟨26, _⟩ => ⟨S1x1x5, .i32⟩
  | .hbm, ⟨27, _⟩ => ⟨S1x1x5, .i32⟩
  | .hbm, ⟨28, _⟩ => ⟨S1x1x5, .i32⟩
  | .hbm, ⟨29, _⟩ => ⟨S2048x2048x5, .i32⟩
  | .hbm, ⟨30, _⟩ => ⟨S2048x2048x5x1, .i32⟩
  | .hbm, ⟨31, _⟩ => ⟨S2048x2048x5x1, .i32⟩
  | .hbm, ⟨32, _⟩ => ⟨S2048x2048x5x2, .i32⟩
  | .hbm, ⟨33, _⟩ => ⟨S2048x2048x5, .f32⟩
  | .hbm, ⟨34, _⟩ => ⟨S2048x2048x5, .f32⟩
  | .hbm, ⟨35, _⟩ => ⟨S2048x2048x5, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S_, .i32⟩
  | .hbm, ⟨40, _⟩ => ⟨S2048x2048, .i32⟩
  | .hbm, ⟨41, _⟩ => ⟨S2048x2048, .i1⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048x2048, .f32⟩
  | .hbm, ⟨48, _⟩ => ⟨S2048x2048, .f32⟩
  | .hbm, ⟨49, _⟩ => ⟨S2048x2048, .i1⟩
  | .hbm, ⟨50, _⟩ => ⟨S_, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048x2048, .f32⟩
  | .hbm, ⟨55, _⟩ => ⟨S2048x2048, .i1⟩
  | .hbm, ⟨56, _⟩ => ⟨S_, .f32⟩
  | .hbm, ⟨57, _⟩ => ⟨S2048x2048, .f32⟩
  | .hbm, ⟨58, _⟩ => ⟨S2048x2048, .f32⟩
  | .hbm, ⟨59, _⟩ => ⟨S_, .f32⟩
  | .hbm, ⟨60, _⟩ => ⟨S2048x2048, .f32⟩
  | .hbm, ⟨61, _⟩ => ⟨S2048x2048, .i1⟩
  | .hbm, ⟨62, _⟩ => ⟨S_, .f32⟩
  | .hbm, ⟨63, _⟩ => ⟨S2048x2048, .f32⟩
  | .hbm, ⟨64, _⟩ => ⟨S2048x2048, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_call2_v0 : Ref sig .tc := ⟨.hbm, 49, rfl⟩
abbrev main_call2_cst : Ref sig .tc := ⟨.hbm, 50, rfl⟩
abbrev main_call2_call0_v0 : Ref sig .tc := ⟨.hbm, 51, rfl⟩
abbrev main_call2_v1 : Ref sig .tc := ⟨.hbm, 52, rfl⟩
abbrev main_call2_cst_0 : Ref sig .tc := ⟨.hbm, 53, rfl⟩
abbrev main_call2_v2 : Ref sig .tc := ⟨.hbm, 54, rfl⟩
abbrev main_call2_v3 : Ref sig .tc := ⟨.hbm, 55, rfl⟩
abbrev main_call2_cst_1 : Ref sig .tc := ⟨.hbm, 56, rfl⟩
abbrev main_call2_call1_v0 : Ref sig .tc := ⟨.hbm, 57, rfl⟩
abbrev main_call2_v4 : Ref sig .tc := ⟨.hbm, 58, rfl⟩
abbrev main_call2_cst_2 : Ref sig .tc := ⟨.hbm, 59, rfl⟩
abbrev main_call2_v5 : Ref sig .tc := ⟨.hbm, 60, rfl⟩
abbrev main_call2_v6 : Ref sig .tc := ⟨.hbm, 61, rfl⟩
abbrev main_call2_cst_3 : Ref sig .tc := ⟨.hbm, 62, rfl⟩
abbrev main_call2_call2_v0 : Ref sig .tc := ⟨.hbm, 63, rfl⟩
abbrev main_v32 : Ref sig .tc := ⟨.hbm, 64, rfl⟩

abbrev nD : Nat := 1
abbrev τ : Topo := Topo.v7x

variable {F : FTy → Type} [FloatOps F]

class Facts₀ : Prop where
  bcast_S_S2048x2048x5 : S_.BroadcastsInDim S2048x2048x5 (![] : Fin 0 → Fin S2048x2048x5.rank)
  bcast_S5_S1x1x5_2 : S5.BroadcastsInDim S1x1x5 (![2] : Fin 1 → Fin S1x1x5.rank)
  bcast_S_S1x1x5 : S_.BroadcastsInDim S1x1x5 (![] : Fin 0 → Fin S1x1x5.rank)
  bcast_S1x1x5_S2048x2048x5_0_1_2 : S1x1x5.BroadcastsInDim S2048x2048x5 (![0, 1, 2] : Fin 3 → Fin S2048x2048x5.rank)
  bcast_S2048x2048x5_S2048x2048x5x1_0_1_2 : S2048x2048x5.BroadcastsInDim S2048x2048x5x1 (![0, 1, 2] : Fin 3 → Fin S2048x2048x5x1.rank)
  concatenates_S2048x2048x5x1_S2048x2048x5x1_S2048x2048x5x2_d3 : Shape.Concatenates [S2048x2048x5x1, S2048x2048x5x1] S2048x2048x5x2 3
  reducesTo_S2048x2048x5_S2048x2048_d2 : S2048x2048x5.ReducesTo [2] S2048x2048
  h_S_ : 0 < S_.numel
  bcast_S_S2048x2048 : S_.BroadcastsInDim S2048x2048 (![] : Fin 0 → Fin S2048x2048.rank)
  dot_S65536x64_S5x64_S65536x5_1_1_0_0_n_n_wf : DotDims.WF S65536x64 S5x64 S65536x5 [1] [1] [0] [0] [] []
  gather_S65536x5_S2048x2048x5x2_S2048x2048x5_n_01_n_n_01_3_11_wf : GatherDims.WF S65536x5 S2048x2048x5x2 S2048x2048x5 [] [0, 1] [] [0, 1] [] 3 ![1, 1]

variable [Facts₀]

def dot_S65536x64_S5x64_S65536x5_1_1_0_0_n_n : DotDims S65536x64 S5x64 S65536x5 where
  lhsContracting := [1]
  rhsContracting := [1]
  lhsNonContracting := [0]
  rhsNonContracting := [0]
  lhsBatch := []
  rhsBatch := []
  wf := dot_S65536x64_S5x64_S65536x5_1_1_0_0_n_n_wf
def gather_S65536x5_S2048x2048x5x2_S2048x2048x5_n_01_n_n_01_3_11 : GatherDims S65536x5 S2048x2048x5x2 S2048x2048x5 where
  offsetDims := []
  collapsedSliceDims := [0, 1]
  operandBatchingDims := []
  startIndicesBatchingDims := []
  startIndexMap := [0, 1]
  indexVectorDim := 3
  sliceSizes := ![1, 1]
  wf := gather_S65536x5_S2048x2048x5x2_S2048x2048x5_n_01_n_n_01_3_11_wf

class Facts : Prop extends Facts₀ where

variable [Facts]
-- ==== Proof.KernelRun.lean ====
/-
  The idealized kernel's run with its result NAMED: every weakly fair execution of @main terminates, nothing faulting,
  the argument arrays unchanged, and the result array holds what the second pallas_call's write-backs leave of it,
  `(dat1 (V4 m ρ) c).arrAt 2 N` — the last segment boundary's contents read at the result buffer as well as at the
  arguments.
-/
import proofs.«139843_j72894184947752_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over @main's five segments (the two pallas_calls and the three host stretches between them), its last
    thread state read against the final memory at the result buffer and at the five arguments. -/
theorem run_named : θ_run defs (onTc (τ := τ) (main (F := F))) ⟨m, fun _ => 0, ρ⟩ (fun r => ∀ c : Dev nD,
      r.2.mem ((c.tc : Thread nD τ).loc main_v24) = (dat1 (V4 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v24 (by decide))).trans (W5_arr m ρ c 2),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Named

end
-- ==== Proof.PathScore.lean ====
/-
  The common value of the two programs, stated once over literal shapes and importing neither program.

  For E = 65536 edges with 64 features, L = 5 path positions and N = 2048 nodes:
    dots[e, l]      = Σ_k attr[e, k] · vec[l, k]                          (one dot product per edge and position)
    masked[i, j, l] = dots[row(paths[i, j, l]), l] · [paths[i, j, l] ≠ -1]   (a gather by the path's edge ids, padding masked out)
    score[i, j]     = clean (Σ_l masked[i, j, l] / (len[i, j] + 1e-10))      where len[i, j] > 0, and 0 elsewhere
  where `clean` sends +∞ and -∞ to the largest and smallest finite f32 values.  The gather's start indices are the
  host's own integer chain (the edge id with -1 replaced by 0, a negative id wrapped by the table's height, paired
  with the position); it is the same chain in both programs, so it is carried as ONE function `masked` that no
  proof opens.
-/
import Idealize.ShloMosaic.PureOps.Ideal
import Idealize.ShloMosaic.PureOps.Ideal.Laws
import Idealize.ShloMosaic.Lib.ValueIdx

noncomputable section

namespace Cert.PathScore

open Idealize.ShloMosaic Idealize.ShloMosaic.ValueIdx

/-! ## Shapes -/

abbrev SE64 : Shape := ⟨2, ![65536, 64]⟩
abbrev SL64 : Shape := ⟨2, ![5, 64]⟩
abbrev SEL : Shape := ⟨2, ![65536, 5]⟩
abbrev SNNL : Shape := ⟨3, ![2048, 2048, 5]⟩
abbrev SNN : Shape := ⟨2, ![2048, 2048]⟩
abbrev S0 : Shape := ⟨0, ![]⟩
abbrev SL : Shape := ⟨1, ![5]⟩
abbrev S11L : Shape := ⟨3, ![1, 1, 5]⟩
abbrev SNNL1 : Shape := ⟨4, ![2048, 2048, 5, 1]⟩
abbrev SNNL2 : Shape := ⟨4, ![2048, 2048, 5, 2]⟩

/-! ## The shape relations the host chain's operations ask for -/

theorem bc_0_NNL : S0.BroadcastsInDim SNNL (![] : Fin 0 → Fin SNNL.rank) := by decide
theorem bc_L_11L : SL.BroadcastsInDim S11L (![2] : Fin 1 → Fin S11L.rank) := by decide
theorem bc_0_11L : S0.BroadcastsInDim S11L (![] : Fin 0 → Fin S11L.rank) := by decide
theorem bc_11L_NNL : S11L.BroadcastsInDim SNNL (![0, 1, 2] : Fin 3 → Fin SNNL.rank) := by decide
theorem bc_NNL_NNL1 : SNNL.BroadcastsInDim SNNL1 (![0, 1, 2] : Fin 3 → Fin SNNL1.rank) := by decide
theorem cat_NNL2 : Shape.Concatenates [SNNL1, SNNL1] SNNL2 3 := by decide
theorem gather_wf : GatherDims.WF SEL SNNL2 SNNL [] [0, 1] [] [0, 1] [] 3 ![1, 1] := by decide

/-- One element of the table per (i, j, l): row and column both given by the start indices. -/
def pick : GatherDims SEL SNNL2 SNNL where
  offsetDims := []
  collapsedSliceDims := [0, 1]
  operandBatchingDims := []
  startIndicesBatchingDims := []
  startIndexMap := [0, 1]
  indexVectorDim := 3
  sliceSizes := ![1, 1]
  wf := gather_wf

/-! ## The shared host chain -/

/-- Where a path position holds an edge (anything but the padding value -1). -/
def present (paths : IVec SNNL 32) : IVec SNNL 1 :=
  cmpi .ne paths (broadcastInDim SNNL ![] bc_0_NNL (constantI S0 32 4294967295#32))

/-- The edge id with the padding replaced by 0. -/
def safe (paths : IVec SNNL 32) : IVec SNNL 32 :=
  select (present paths) paths (broadcastInDim SNNL ![] bc_0_NNL (id (constantI S0 32 0#32)))

/-- A negative row index counted from the table's end. -/
def wrapRow (r : IVec SNNL 32) : IVec SNNL 32 :=
  select (cmpi .slt r (broadcastInDim SNNL ![] bc_0_NNL (constantI S0 32 0#32)))
    (addi r (broadcastInDim SNNL ![] bc_0_NNL (constantI S0 32 65536#32))) r

/-- The positions 0 … 4 as column indices (a negative one would be counted from the end; none is). -/
def cols : IVec S11L 32 :=
  select (cmpi .slt (broadcastInDim S11L ![2] bc_L_11L (iotaInDim SL 32 0)) (broadcastInDim S11L ![] bc_0_11L (constantI S0 32 0#32)))
    (addi (broadcastInDim S11L ![2] bc_L_11L (iotaInDim SL 32 0)) (broadcastInDim S11L ![] bc_0_11L (constantI S0 32 5#32)))
    (broadcastInDim S11L ![2] bc_L_11L (iotaInDim SL 32 0))

/-- The (row, column) start pair of every (i, j, l). -/
def starts (paths : IVec SNNL 32) : IVec SNNL2 32 :=
  concatenate SNNL2 3
    [⟨SNNL1, broadcastInDim SNNL1 ![0, 1, 2] bc_NNL_NNL1 (wrapRow (safe paths))⟩,
     ⟨SNNL1, broadcastInDim SNNL1 ![0, 1, 2] bc_NNL_NNL1 (broadcastInDim SNNL ![0, 1, 2] bc_11L_NNL cols)⟩] cat_NNL2

/-- The gathered dot products with the padding positions multiplied by 0. -/
def masked (dots : FVec Ideal SEL .f32) (paths : IVec SNNL 32) : FVec Ideal SNNL .f32 :=
  mulf (Host.gather pick dots (starts paths)) (uitofp .f32 (present paths))

/-! ## The arithmetic on one element -/

/-- The dot product of edge `e`'s features with position `l`'s vector. -/
def dots (attr : SE64.Idx → EReal) (vec : SL64.Idx → EReal) : SEL.Idx → EReal :=
  fun j => ∑ k : Fin 64, attr (ix2 (j 0) k) * vec (ix2 (j 1) k)

/-- A path's summed score `s` over its length `n`: the quotient by `n + 1e-10` where `n > 0`, and 0 elsewhere. -/
def quot (s : EReal) (n : BitVec 32) : EReal :=
  Scalar.select (IntOp.cmpi .sgt n 0#32)
    (FloatOps.divf (F := Ideal) (φ := .f32) s (FloatOps.addf (FloatOps.sitofp .f32 n) (Scalar.ofBits .f32 0x2EDBE6FF#32)))
    (Scalar.ofBits (F := Ideal) .f32 0x00000000#32)

/-- The two infinities replaced by the extreme finite values (the NaN test `q ≠ q` before them never fires on the
    extended reals and leaves `q`). -/
def clean (q : Ideal .f32) : Ideal .f32 :=
  let a : Ideal .f32 := Scalar.select (FloatOps.cmpf .one q q) (Scalar.ofBits .f32 0x00000000#32) q
  let b : Ideal .f32 := Scalar.select (FloatOps.cmpf .oeq a (Scalar.ofBits .f32 0x7F800000#32)) (Scalar.ofBits .f32 0x7F7FFFFF#32) a
  (Scalar.select (FloatOps.cmpf .oeq b (Scalar.ofBits .f32 0xFF800000#32)) (Scalar.ofBits .f32 0xFF7FFFFF#32) b : Ideal .f32)

/-- The normalization of one path's summed score. -/
def nrm (s : EReal) (n : BitVec 32) : EReal := clean (quot s n)

/-- The result: for every node pair the normalized sum over the path's positions. -/
def score (vals : SNNL.Idx → EReal) (len : SNN.Idx → BitVec 32) : SNN.Idx → EReal :=
  fun i => nrm (∑ l : Fin 5, vals (ix3 (i 0) (i 1) l)) (len i)

end Cert.PathScore

end
-- ==== Proof.Bodies.lean ====
/-
  The two kernel bodies' arithmetic read at one element, at the exact values.

  The first body multiplies a block of 8192 edges' features by the transposed position vectors into a zero accumulator:
  its element (p, q) is Σ_k x[p, k] · y[q, k] (the roundings to bf16 are the identity on exact values, the transpose
  swaps the two coordinates of `y`).  The second sums a [5, 256, 2048] block over its leading axis — element (p, q) of
  the sum is Σ_l x[l, p, q] — and then applies, element by element, exactly the normalization `PathScore.nrm`.
-/
import proofs.«139843_j72894184947752_2_alg».proof.Proof.Gen.KernelIdeal.Skeleton
import proofs.«139843_j72894184947752_2_alg».proof.Proof.PathScore
import Idealize.ShloMosaic.Lib.Pipeline.Value
import Idealize.ShloMosaic.Lib.ValueIdx
import Idealize.ShloMosaic.PureOps.Ideal.Laws

noncomputable section

namespace Cert.KernelIdeal.Bodies

open Cert.KernelIdeal Cert.KernelIdeal.Gen Idealize.ShloMosaic Idealize.ShloMosaic.ValueIdx

/-! ## The matrix product's index maps, coordinate by coordinate -/

/-- The product's dimension numbers: rows of the left operand against columns of the right one. -/
abbrev DK : DotDims S8192x64 S64x5 S8192x5 := dot_S8192x64_S64x5_S8192x5_1_0_0_1_n_n

theorem lhs_row (j : S8192x5.Idx) (k : DK.contr.Idx) : (DK.lhsIdx j k 0 : ℕ) = j 0 := by
  simp [DotDims.lhsIdx, DK, dot_S8192x64_S64x5_S8192x5_1_0_0_1_n_n]; rfl
theorem lhs_col (j : S8192x5.Idx) (k : DK.contr.Idx) : (DK.lhsIdx j k 1 : ℕ) = k ⟨0, by decide⟩ := by
  simp [DotDims.lhsIdx, DK, dot_S8192x64_S64x5_S8192x5_1_0_0_1_n_n]; rfl
theorem rhs_row (j : S8192x5.Idx) (k : DK.contr.Idx) : (DK.rhsIdx j k 0 : ℕ) = k ⟨0, by decide⟩ := by
  simp [DotDims.rhsIdx, DK, dot_S8192x64_S64x5_S8192x5_1_0_0_1_n_n]; rfl
theorem rhs_col (j : S8192x5.Idx) (k : DK.contr.Idx) : (DK.rhsIdx j k 1 : ℕ) = j 1 := by
  simp [DotDims.rhsIdx, DK, dot_S8192x64_S64x5_S8192x5_1_0_0_1_n_n]; rfl

/-- The contraction index is its one coordinate, below 64. -/
def contr64 : DK.contr.Idx ≃ Fin 64 := contrEquiv1 DK 64 rfl rfl

/-- Element (p, q) of the first body's stored value. -/
theorem dots_elem (x : Vec Ideal S8192x64 .f32) (y : Vec Ideal S5x64 .f32) (p : Fin 8192) (q : Fin 5) :
    k0_pay1 (F := Ideal) x y (ix2 p q) = ∑ k : Fin 64, x (ix2 p k) * y (ix2 q k) := by
  unfold k0_pay1
  refine (Ideal.matmul_constant_zero_apply DK none _ _ (ix2 p q)).trans ?_
  rw [← Equiv.sum_comp contr64.symm]
  refine Finset.sum_congr rfl fun k _ => ?_
  have hk : ((contr64.symm k) ⟨0, by decide⟩ : ℕ) = k.val := contrEquiv1_symm_val DK 64 rfl rfl k
  have hl : DK.lhsIdx (ix2 p q) (contr64.symm k) = ix2 p k := by
    funext a; apply Fin.ext
    match a with
    | ⟨0, _⟩ => exact lhs_row _ _
    | ⟨1, _⟩ => exact (lhs_col _ _).trans hk
  have hr : transpose S64x5 [1, 0] (truncf (F := Ideal) .bf16 y bitsLt_bf16_f32) transposes_S5x64_p1_0_S64x5 (DK.rhsIdx (ix2 p q) (contr64.symm k))
      = y (ix2 q k) := by
    refine transpose_apply [1, 0] _ transposes_S5x64_p1_0_S64x5 _ (ix2 q k) fun b => ?_
    match b with
    | ⟨0, _⟩ => exact ((rhs_row _ _).trans hk).symm
    | ⟨1, _⟩ => exact (rhs_col (ix2 p q) _).symm
  rw [hr, hl]
  rfl

/-! ## The sum over the path positions and the normalization -/

/-- Element (p, q) of the second body's stored value. -/
theorem score_elem (x : Vec Ideal S5x256x2048 .f32) (n : Vec Ideal S256x2048 .i32) (p : Fin 256) (q : Fin 2048) :
    k1_pay1 (F := Ideal) x n (ix2 p q) = PathScore.nrm (∑ l : Fin 5, x (ix3 l p q)) (n (ix2 p q)) := by
  have hsum : multiReduction (F := Ideal) .add [0] S256x2048 (shapeCast S5x256x2048 x shapeCasts_S5x256x2048_S5x256x2048) 0x00000000#32
      reduces_S5x256x2048_S256x2048 (.inl rfl) rfl (ix2 p q) = ∑ l : Fin 5, x (ix3 l p q) := by
    refine (Ideal.multiReduction_add_single _ _ reduces_S5x256x2048_S256x2048 (.inl rfl) rfl (ix2 p q)).trans ?_
    refine Finset.sum_congr rfl fun l _ => ?_
    rw [shapeCast_self]
    refine congrArg x (funext fun a => Fin.ext ?_)
    match a with
    | ⟨0, _⟩ => rfl
    | ⟨1, _⟩ => rfl
    | ⟨2, _⟩ => rfl
  rw [← hsum]
  rfl

end Cert.KernelIdeal.Bodies

end
-- ==== Proof.ScoreRegion.lean ====
/-
  The second pallas_call (the sum over the positions and the normalization), from ANY contents `V` of its two input
  arrays: the array it writes ends holding, at every node pair (i, j), `PathScore.nrm` of Σ_l x[l, i, j] and of len[i, j].

  Point t of its grid of 8 reads rows 256·t … 256·t + 255 of both inputs (all five leading slices of the first) and
  writes the same rows of the output; the 8 blocks tile the 2048 rows.
-/
import proofs.«139843_j72894184947752_2_alg».proof.Proof.Gen.KernelIdeal.Frame
import proofs.«139843_j72894184947752_2_alg».proof.Proof.Bodies
import Idealize.ShloMosaic.Lib.Pipeline.Value

noncomputable section

namespace Cert.KernelIdeal.ScoreRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl

/-- The output array as one function of the two input arrays. -/
def scoreOf (x : S5x2048x2048.Idx → EReal) (n : S2048x2048.Idx → BitVec 32) : S2048x2048.Idx → EReal :=
  fun i => PathScore.nrm (∑ l : Fin 5, x (ix3 l (i 0) (i 1))) (n i)

/-- The printed index maps, decided over the 8 points: the three windows move together along the rows. -/
theorem idx_facts : ∀ t : Fin cfg1.N, win1_0.index t (0 : Fin 3) = 0
    ∧ win1_0.index t (1 : Fin 3) = win1_2.index t (0 : Fin 2)
    ∧ win1_0.index t (2 : Fin 3) = 0
    ∧ win1_1.index t (0 : Fin 2) = win1_2.index t (0 : Fin 2)
    ∧ win1_1.index t (1 : Fin 2) = 0
    ∧ win1_2.index t (1 : Fin 2) = 0
    ∧ win1_2.index t (0 : Fin 2) ≤ 7 :=
  (by decide +kernel : ∀ t : Fin grid1.N, _)

/-- Every block of rows is some point's. -/
theorem idx_onto : ∀ q0 : Fin 8, ∃ t : Fin cfg1.N, win1_2.index t = ![q0.val, 0] :=
  (by decide +kernel : ∀ q0 : Fin 8, ∃ t : Fin grid1.N, win1_2.index t = ![q0.val, 0])

/-- What point `t` writes back is its block of `scoreOf` of the input arrays. -/
theorem flushed_eq (c : Dev nD) (t : Fin cfg1.N) :
    (dat1 V c).flushed 2 t = ((cfg1.win 2).blk t).view.read (Elt Ideal) (scoreOf (V c main_v23) (V c main_arg4)) := by
  show (cfg1.win 2).cut (grid1.coords t) ((dat1 V c).after 2 t) = _
  rw [after1_2]
  unfold out1_2
  rw [View.canon_unit_zero zero2]
  simp only [View.ld_unit_zero (S := S5x256x2048) zero3, View.ld_unit_zero (S := S256x2048) zero2]
  obtain ⟨e0, e1, e2, e3, e4, e5, e6⟩ := idx_facts t
  funext j
  obtain ⟨p, q, rfl⟩ : ∃ (p : Fin 256) (q : Fin 2048), j = ix2 p q := ⟨j 0, j 1, eq_ix2 j⟩
  have hp : p.val < 256 := p.isLt
  have hq : q.val < 2048 := q.isLt
  show k1_pay1 (iblk1 V c 0 t) (iblk1 V c 1 t) (ix2 p q)
    = scoreOf (V c main_v23) (V c main_arg4) (((cfg1.win 2).blk t).view.emb (ix2 p q))
  refine (Bodies.score_elem (iblk1 V c 0 t) (iblk1 V c 1 t) p q).trans ?_
  have hrow : win1_2.index t (0 : Fin 2) * 256 + p.val < 2048 := by omega
  have hpos : ((cfg1.win 2).blk t).view.emb (ix2 p q) = ix2 ⟨win1_2.index t (0 : Fin 2) * 256 + p.val, hrow⟩ q := by
    funext a; apply Fin.ext
    match a with
    | ⟨0, _⟩ => show win1_2.index t (0 : Fin 2) * 256 + 1 * p.val = win1_2.index t (0 : Fin 2) * 256 + p.val; omega
    | ⟨1, _⟩ => show win1_2.index t (1 : Fin 2) * 2048 + 1 * q.val = q.val; omega
  have hlen : iblk1 V c 1 t (ix2 p q) = V c main_arg4 (ix2 ⟨win1_2.index t (0 : Fin 2) * 256 + p.val, hrow⟩ q) := by
    show V c main_arg4 (((cfg1.win 1).blk t).view.emb (ix2 p q)) = _
    refine congrArg _ (funext fun a => Fin.ext ?_)
    match a with
    | ⟨0, _⟩ => show win1_1.index t (0 : Fin 2) * 256 + 1 * p.val = win1_2.index t (0 : Fin 2) * 256 + p.val; omega
    | ⟨1, _⟩ => show win1_1.index t (1 : Fin 2) * 2048 + 1 * q.val = q.val; omega
  have hval : ∀ l : Fin 5, iblk1 V c 0 t (ix3 l p q) = V c main_v23 (ix3 l ⟨win1_2.index t (0 : Fin 2) * 256 + p.val, hrow⟩ q) := by
    intro l
    have hl : l.val < 5 := l.isLt
    show V c main_v23 (((cfg1.win 0).blk t).view.emb (ix3 l p q)) = _
    refine congrArg _ (funext fun a => Fin.ext ?_)
    match a with
    | ⟨0, _⟩ => show win1_0.index t (0 : Fin 3) * 5 + 1 * l.val = l.val; omega
    | ⟨1, _⟩ => show win1_0.index t (1 : Fin 3) * 256 + 1 * p.val = win1_2.index t (0 : Fin 2) * 256 + p.val; omega
    | ⟨2, _⟩ => show win1_0.index t (2 : Fin 3) * 2048 + 1 * q.val = q.val; omega
  rw [hpos, hlen]
  unfold scoreOf
  exact congrArg (fun s => PathScore.nrm s _) (Finset.sum_congr rfl fun l _ => hval l)

/-- An index is in point `t`'s block iff each coordinate is in the block's range on its axis. -/
theorem mem_blk (t : Fin cfg1.N) (i : S2048x2048.Idx) :
    i ∈ ((cfg1.win 2).blk t).view.set ↔ ∀ a : Fin 2, win1_2.index t a * S256x2048.size a ≤ (i a).val ∧ (i a).val < win1_2.index t a * S256x2048.size a + S256x2048.size a := by
  show i ∈ ((View.whole main_v24).slice (win1_2.rect t)).set ↔ _
  rw [View.set_slice_whole, Rect.mem_set_unit]
  exact Iff.rfl

/-- The 8 blocks of 256 rows cover the array: row r is in the block of point r / 256. -/
theorem cover (i : S2048x2048.Idx) : ∃ t : Fin cfg1.N, (cfg1.win 2).flush t = true ∧ i ∈ ((cfg1.win 2).blk t).view.set := by
  have hi0 : (i 0).val < 2048 := (i 0).isLt
  have hi1 : (i 1).val < 2048 := (i 1).isLt
  obtain ⟨t, ht⟩ := idx_onto ⟨(i 0).val / 256, by omega⟩
  have q0 : win1_2.index t (0 : Fin 2) = (i 0).val / 256 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 2048 ≤ (i 1).val ∧ (i 1).val < win1_2.index t (1 : Fin 2) * 2048 + 2048; omega

/-- The output array after the region. -/
theorem final (c : Dev nD) : (dat1 V c).arrAt 2 cfg1.N = scoreOf (V c main_v23) (V c main_arg4) :=
  (dat1 V c).arrAt_eq_of_cover 2 _ (fun t _ => flushed_eq V c t) cover

end Cert.KernelIdeal.ScoreRegion

end
-- ==== Proof.DotsRegion.lean ====
/-
  The first pallas_call (the dot products), from ANY contents `V` of its two input arrays: the array it writes ends
  holding `PathScore.dots` of them — at (e, l) the sum over the 64 features of attr[e, k] · vec[l, k].

  Point t of its grid of 8 reads edges 8192·t … 8192·t + 8191 and the whole [5, 64] array of position vectors, and
  writes the same edges' rows of the output; the 8 blocks tile the 65536 edges.
-/
import proofs.«139843_j72894184947752_2_alg».proof.Proof.Gen.KernelIdeal.Frame
import proofs.«139843_j72894184947752_2_alg».proof.Proof.Bodies
import Idealize.ShloMosaic.Lib.Pipeline.Value

noncomputable section

namespace Cert.KernelIdeal.DotsRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The printed index maps, decided over the 8 points: the edge blocks move together, the position vectors stay. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every block of edges is some point's. -/
theorem idx_onto : ∀ q0 : Fin 8, ∃ t : Fin cfg0.N, win0_2.index t = ![q0.val, 0] :=
  (by decide +kernel : ∀ q0 : Fin 8, ∃ t : Fin grid0.N, win0_2.index t = ![q0.val, 0])

/-- What point `t` writes back is its block of the dot products of the input arrays. -/
theorem flushed_eq (c : Dev nD) (t : Fin cfg0.N) :
    (dat0 V c).flushed 2 t = ((cfg0.win 2).blk t).view.read (Elt Ideal) (PathScore.dots (V c main_arg1) (V c main_arg2)) := by
  show (cfg0.win 2).cut (grid0.coords t) ((dat0 V c).after 2 t) = _
  rw [after0_2]
  unfold out0_2
  rw [View.canon_unit_zero zero2]
  simp only [View.ld_unit_zero (S := S8192x64) zero2, View.ld_unit_zero (S := S5x64) zero2]
  obtain ⟨e0, e1, e2, e3, e4, e5⟩ := idx_facts t
  funext j
  obtain ⟨p, q, rfl⟩ : ∃ (p : Fin 8192) (q : Fin 5), j = ix2 p q := ⟨j 0, j 1, eq_ix2 j⟩
  have hp : p.val < 8192 := p.isLt
  have hq : q.val < 5 := q.isLt
  show k0_pay1 (iblk0 V c 0 t) (iblk0 V c 1 t) (ix2 p q)
    = PathScore.dots (V c main_arg1) (V c main_arg2) (((cfg0.win 2).blk t).view.emb (ix2 p q))
  refine (Bodies.dots_elem (iblk0 V c 0 t) (iblk0 V c 1 t) p q).trans ?_
  have hrow : win0_2.index t (0 : Fin 2) * 8192 + p.val < 65536 := by omega
  have hpos : ((cfg0.win 2).blk t).view.emb (ix2 p q) = ix2 ⟨win0_2.index t (0 : Fin 2) * 8192 + p.val, hrow⟩ q := by
    funext a; apply Fin.ext
    match a with
    | ⟨0, _⟩ => show win0_2.index t (0 : Fin 2) * 8192 + 1 * p.val = win0_2.index t (0 : Fin 2) * 8192 + p.val; omega
    | ⟨1, _⟩ => show win0_2.index t (1 : Fin 2) * 5 + 1 * q.val = q.val; omega
  have hx : ∀ k : Fin 64, iblk0 V c 0 t (ix2 p k) = V c main_arg1 (ix2 ⟨win0_2.index t (0 : Fin 2) * 8192 + p.val, hrow⟩ k) := by
    intro k
    have hk : k.val < 64 := k.isLt
    show V c main_arg1 (((cfg0.win 0).blk t).view.emb (ix2 p k)) = _
    refine congrArg _ (funext fun a => Fin.ext ?_)
    match a with
    | ⟨0, _⟩ => show win0_0.index t (0 : Fin 2) * 8192 + 1 * p.val = win0_2.index t (0 : Fin 2) * 8192 + p.val; omega
    | ⟨1, _⟩ => show win0_0.index t (1 : Fin 2) * 64 + 1 * k.val = k.val; omega
  have hy : ∀ k : Fin 64, iblk0 V c 1 t (ix2 q k) = V c main_arg2 (ix2 q k) := by
    intro k
    have hk : k.val < 64 := k.isLt
    show V c main_arg2 (((cfg0.win 1).blk t).view.emb (ix2 q k)) = _
    refine congrArg _ (funext fun a => Fin.ext ?_)
    match a with
    | ⟨0, _⟩ => show win0_1.index t (0 : Fin 2) * 5 + 1 * q.val = q.val; omega
    | ⟨1, _⟩ => show win0_1.index t (1 : Fin 2) * 64 + 1 * k.val = k.val; omega
  rw [hpos]
  unfold PathScore.dots
  exact Finset.sum_congr rfl fun k _ => by rw [hx k, hy k]

/-- An index is in point `t`'s block iff each coordinate is in the block's range on its axis. -/
theorem mem_blk (t : Fin cfg0.N) (i : S65536x5.Idx) :
    i ∈ ((cfg0.win 2).blk t).view.set ↔ ∀ a : Fin 2, win0_2.index t a * S8192x5.size a ≤ (i a).val ∧ (i a).val < win0_2.index t a * S8192x5.size a + S8192x5.size a := by
  show i ∈ ((View.whole main_v0).slice (win0_2.rect t)).set ↔ _
  rw [View.set_slice_whole, Rect.mem_set_unit]
  exact Iff.rfl

/-- The 8 blocks of 8192 edges cover the array: edge e is in the block of point e / 8192. -/
theorem cover (i : S65536x5.Idx) : ∃ t : Fin cfg0.N, (cfg0.win 2).flush t = true ∧ i ∈ ((cfg0.win 2).blk t).view.set := by
  have hi0 : (i 0).val < 65536 := (i 0).isLt
  have hi1 : (i 1).val < 5 := (i 1).isLt
  obtain ⟨t, ht⟩ := idx_onto ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 5 ≤ (i 1).val ∧ (i 1).val < win0_2.index t (1 : Fin 2) * 5 + 5; omega

/-- The output array after the region. -/
theorem final (c : Dev nD) : (dat0 V c).arrAt 2 cfg0.N = PathScore.dots (V c main_arg1) (V c main_arg2) :=
  (dat0 V c).arrAt_eq_of_cover 2 _ (fun t _ => flushed_eq V c t) cover

end Cert.KernelIdeal.DotsRegion

end
-- ==== Proof.Between.lean ====
/-
  The host operations between the two pallas_calls, from ANY contents `W` at the first call's exit: they leave, at the
  second call's first input array, the transposed [5, N, N] copy of the shared chain `PathScore.masked` of the first
  call's output and of the paths; they write neither the lengths nor the paths.  A transposed array at (l, i, j) is the
  array at (i, j, l).
-/
import proofs.«139843_j72894184947752_2_alg».proof.Proof.Gen.KernelIdeal.Launch
import proofs.«139843_j72894184947752_2_alg».proof.Proof.PathScore
import Idealize.ShloMosaic.Lib.StableHlo.Run
import Idealize.ShloMosaic.Lib.Pipeline.Value
import Idealize.ShloMosaic.Lib.ValueIdx

noncomputable section

namespace Cert.KernelIdeal.Between

open Cert.KernelIdeal Cert.KernelIdeal.Gen Idealize.ShloMosaic Idealize.ShloMosaic.TcCoe Idealize.SL.Sem Idealize.ShloMosaic.StableHlo
open Idealize.ShloMosaic.ValueIdx

variable (W : Valuation τ sig (Elt Ideal))

/-- The second call's first input after the three stretches. -/
theorem transposed_masked :
    after hostOps1_2 (after hostOps1_1 (after hostOps1 W)) (Proc.devRef .tc main_v23)
      = transpose S5x2048x2048 [2, 0, 1] (PathScore.masked (W (Proc.devRef .tc main_v0)) (W (Proc.devRef .tc main_arg3)))
          transposes_S2048x2048x5_S5x2048x2048_2_0_1 := by
  simp only [hostOps1, hostOps1_1, hostOps1_2]
  after_results_simp
  rfl

/-- The three stretches do not write the lengths. -/
theorem keeps_len :
    after hostOps1_2 (after hostOps1_1 (after hostOps1 W)) (Proc.devRef .tc main_arg4) = W (Proc.devRef .tc main_arg4) := by
  simp only [hostOps1, hostOps1_1, hostOps1_2]
  after_results_simp

/-- The transposed copy at (l, i, j) is the array at (i, j, l). -/
theorem transposed_apply (x : FVec Ideal S2048x2048x5 .f32) (l : Fin 5) (i j : Fin 2048) :
    transpose S5x2048x2048 [2, 0, 1] x transposes_S2048x2048x5_S5x2048x2048_2_0_1 (ix3 l i j) = x (ix3 i j l) := by
  refine transpose_apply [2, 0, 1] x transposes_S2048x2048x5_S5x2048x2048_2_0_1 (ix3 l i j) (ix3 i j l) fun b => ?_
  match b with
  | ⟨0, _⟩ => rfl
  | ⟨1, _⟩ => rfl
  | ⟨2, _⟩ => rfl

end Cert.KernelIdeal.Between

end
-- ==== Proof.KernelValue.lean ====
/-
  The idealized kernel's result array as `PathScore.score` of the arguments.

  The second pallas_call leaves `nrm` of the sums over the leading axis of its first input; that input is the
  transposed copy of the shared chain `masked` of the first pallas_call's output — the dot products — and of the paths,
  and a sum over the leading axis of a transposed copy is the sum over the last axis of the array.
-/
import proofs.«139843_j72894184947752_2_alg».proof.Proof.KernelRun
import proofs.«139843_j72894184947752_2_alg».proof.Proof.ScoreRegion
import proofs.«139843_j72894184947752_2_alg».proof.Proof.DotsRegion
import proofs.«139843_j72894184947752_2_alg».proof.Proof.Between

noncomputable section

namespace Cert.KernelIdeal.Named

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The first pallas_call's output, as the host stretch after it finds it: the dot products of the arguments. -/
theorem dots_at_exit (c : Dev nD) :
    W1 m ρ c (Proc.devRef .tc main_v0)
      = PathScore.dots (m ((c.tc : Thread nD τ).loc main_arg1)) (m ((c.tc : Thread nD τ).loc main_arg2)) :=
  (W1_arr m ρ c 2).trans (DotsRegion.final (V0 m ρ) c)

/-- The paths and the lengths at the first pallas_call's exit are the arguments. -/
theorem paths_at_exit (c : Dev nD) : W1 m ρ c (Proc.devRef .tc main_arg3) = m ((c.tc : Thread nD τ).loc main_arg3) :=
  W1_of_ne m ρ c main_arg3 (by decide)
theorem len_at_exit (c : Dev nD) : W1 m ρ c (Proc.devRef .tc main_arg4) = m ((c.tc : Thread nD τ).loc main_arg4) :=
  W1_of_ne m ρ c main_arg4 (by decide)

/-- The second pallas_call's first input: the transposed masked scores. -/
theorem masked_at_entry (c : Dev nD) :
    V4 m ρ c main_v23
      = transpose S5x2048x2048 [2, 0, 1]
          (PathScore.masked (PathScore.dots (m ((c.tc : Thread nD τ).loc main_arg1)) (m ((c.tc : Thread nD τ).loc main_arg2)))
            (m ((c.tc : Thread nD τ).loc main_arg3)))
          transposes_S2048x2048x5_S5x2048x2048_2_0_1 := by
  show after hostOps1_2 (after hostOps1_1 (after hostOps1 (W1 m ρ c))) (Proc.devRef .tc main_v23) = _
  rw [Between.transposed_masked, dots_at_exit, paths_at_exit]

/-- Its second input: the lengths. -/
theorem len_at_entry (c : Dev nD) : V4 m ρ c main_arg4 = m ((c.tc : Thread nD τ).loc main_arg4) := by
  show after hostOps1_2 (after hostOps1_1 (after hostOps1 (W1 m ρ c))) (Proc.devRef .tc main_arg4) = _
  rw [Between.keeps_len, len_at_exit]

/-- The result array after the run. -/
theorem result_eq (c : Dev nD) :
    (dat1 (V4 m ρ) c).arrAt 2 cfg1.N
      = PathScore.score (PathScore.masked (PathScore.dots (m ((c.tc : Thread nD τ).loc main_arg1)) (m ((c.tc : Thread nD τ).loc main_arg2)))
          (m ((c.tc : Thread nD τ).loc main_arg3))) (m ((c.tc : Thread nD τ).loc main_arg4)) := by
  rw [ScoreRegion.final (V4 m ρ) c, masked_at_entry, len_at_entry]
  funext i
  unfold ScoreRegion.scoreOf PathScore.score
  exact congrArg (fun s => PathScore.nrm s _) (Finset.sum_congr rfl fun l _ => Between.transposed_apply _ l (i 0) (i 1))

/-- The idealized kernel's run, read: it terminates with the result at `PathScore.score` of the arguments and the
    arguments unchanged. -/
theorem run : θ_run defs (onTc (τ := τ) (main (F := Ideal))) ⟨m, fun _ => 0, ρ⟩ fun r => ∀ c : Dev nD,
      r.2.mem ((c.tc : Thread nD τ).loc main_v24)
        = PathScore.score (PathScore.masked (PathScore.dots (m ((c.tc : Thread nD τ).loc main_arg1)) (m ((c.tc : Thread nD τ).loc main_arg2)))
            (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (result_eq m ρ c), (h c).2⟩) (run_named (F := Ideal) m ρ)

end Cert.KernelIdeal.Named

end
-- ==== Proof.RefStraight.lean ====
/-
  The reference's @main as one straight line of host operations, its calls (the three `where`s and `nan_to_num`) written
  out at their call sites over the calls' own buffers, cut in three stretches:
    `opsGather`   the dot products, the index chain, the gather and the mask     (its last value: the masked scores [N, N, L])
    `opsQuotient` the sum over the positions, the quotient by the length, the select on `len > 0`
    `opsClean`    the replacement of the infinities
  and its run: every weakly fair execution ends with each buffer at the fold of the operations over the launch contents.
  Each stretch is then read at the one buffer the next stretch consumes, from ANY contents `V`, so that no term repeats a
  whole earlier stretch.
-/
import proofs.«139843_j72894184947752_2_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- Through the masked scores: the dot products, the padding test, the start indices, the gather, the product with the mask. -/
abbrev opsGather : List (HloOp τ sig (Elt F)) :=
  [ binary main_arg1 main_arg2 main_v0 ((fun l r => Host.dotGeneral dot_S65536x64_S5x64_S65536x5_1_1_0_0_n_n none l r) : (⟨S65536x64, .f32⟩ : BufTy).Contents (Elt F) → (⟨S5x64, .f32⟩ : BufTy).Contents (Elt F) → (⟨S65536x5, .f32⟩ : BufTy).Contents (Elt F)),
    nullary main_c (constantI S_ 32 4294967295#32),
    unary main_c main_v1 (broadcastInDim S2048x2048x5 ![] bcast_S_S2048x2048x5 : (⟨S_, .i32⟩ : BufTy).Contents (Elt F) → (⟨S2048x2048x5, .i32⟩ : BufTy).Contents (Elt F)),
    binary main_arg3 main_v1 main_v2 (cmpi .ne : (⟨S2048x2048x5, .i32⟩ : BufTy).Contents (Elt F) → (⟨S2048x2048x5, .i32⟩ : BufTy).Contents (Elt F) → (⟨S2048x2048x5, .i1⟩ : BufTy).Contents (Elt F)),
    nullary main_c_0 (constantI S_ 32 0#32),
    TRef.unary (.of main_c_0 : TRef sig ⟨S_, .i32⟩) main_call0.v0 id,
    TRef.unary main_call0.v0 main_call0.v1 (broadcastInDim S2048x2048x5 ![] bcast_S_S2048x2048x5),
    TRef.ternary (.of main_v2 : TRef sig ⟨S2048x2048x5, .i1⟩) (.of main_arg3 : TRef sig ⟨S2048x2048x5, .i32⟩) main_call0.v1 main_call0.v2 select,
    nullary main_v4 (iotaInDim S5 32 0),
    unary main_v4 main_v5 (broadcastInDim S1x1x5 ![2] bcast_S5_S1x1x5_2 : (⟨S5, .i32⟩ : BufTy).Contents (Elt F) → (⟨S1x1x5, .i32⟩ : BufTy).Contents (Elt F)),
    nullary main_c_1 (constantI S_ 32 0#32),
    unary main_c_1 main_v6 (broadcastInDim S2048x2048x5 ![] bcast_S_S2048x2048x5 : (⟨S_, .i32⟩ : BufTy).Contents (Elt F) → (⟨S2048x2048x5, .i32⟩ : BufTy).Contents (Elt F)),
    binary main_v3 main_v6 main_v7 (cmpi .slt : (⟨S2048x2048x5, .i32⟩ : BufTy).Contents (Elt F) → (⟨S2048x2048x5, .i32⟩ : BufTy).Contents (Elt F) → (⟨S2048x2048x5, .i1⟩ : BufTy).Contents (Elt F)),
    nullary main_c_2 (constantI S_ 32 65536#32),
    unary main_c_2 main_v8 (broadcastInDim S2048x2048x5 ![] bcast_S_S2048x2048x5 : (⟨S_, .i32⟩ : BufTy).Contents (Elt F) → (⟨S2048x2048x5, .i32⟩ : BufTy).Contents (Elt F)),
    binary main_v3 main_v8 main_v9 (addi : (⟨S2048x2048x5, .i32⟩ : BufTy).Contents (Elt F) → (⟨S2048x2048x5, .i32⟩ : BufTy).Contents (Elt F) → (⟨S2048x2048x5, .i32⟩ : BufTy).Contents (Elt F)),
    ternary main_v7 main_v9 main_v3 main_v10 (select : (⟨S2048x2048x5, .i1⟩ : BufTy).Contents (Elt F) → (⟨S2048x2048x5, .i32⟩ : BufTy).Contents (Elt F) → (⟨S2048x2048x5, .i32⟩ : BufTy).Contents (Elt F) → (⟨S2048x2048x5, .i32⟩ : BufTy).Contents (Elt F)),
    nullary main_c_3 (constantI S_ 32 0#32),
    unary main_c_3 main_v11 (broadcastInDim S1x1x5 ![] bcast_S_S1x1x5 : (⟨S_, .i32⟩ : BufTy).Contents (Elt F) → (⟨S1x1x5, .i32⟩ : BufTy).Contents (Elt F)),
    binary main_v5 main_v11 main_v12 (cmpi .slt : (⟨S1x1x5, .i32⟩ : BufTy).Contents (Elt F) → (⟨S1x1x5, .i32⟩ : BufTy).Contents (Elt F) → (⟨S1x1x5, .i1⟩ : BufTy).Contents (Elt F)),
    nullary main_c_4 (constantI S_ 32 5#32),
    unary main_c_4 main_v13 (broadcastInDim S1x1x5 ![] bcast_S_S1x1x5 : (⟨S_, .i32⟩ : BufTy).Contents (Elt F) → (⟨S1x1x5, .i32⟩ : BufTy).Contents (Elt F)),
    binary main_v5 main_v13 main_v14 (addi : (⟨S1x1x5, .i32⟩ : BufTy).Contents (Elt F) → (⟨S1x1x5, .i32⟩ : BufTy).Contents (Elt F) → (⟨S1x1x5, .i32⟩ : BufTy).Contents (Elt F)),
    ternary main_v12 main_v14 main_v5 main_v15 (select : (⟨S1x1x5, .i1⟩ : BufTy).Contents (Elt F) → (⟨S1x1x5, .i32⟩ : BufTy).Contents (Elt F) → (⟨S1x1x5, .i32⟩ : BufTy).Contents (Elt F) → (⟨S1x1x5, .i32⟩ : BufTy).Contents (Elt F)),
    unary main_v15 main_v16 (broadcastInDim S2048x2048x5 ![0, 1, 2] bcast_S1x1x5_S2048x2048x5_0_1_2 : (⟨S1x1x5, .i32⟩ : BufTy).Contents (Elt F) → (⟨S2048x2048x5, .i32⟩ : BufTy).Contents (Elt F)),
    unary main_v10 main_v17 (broadcastInDim S2048x2048x5x1 ![0, 1, 2] bcast_S2048x2048x5_S2048x2048x5x1_0_1_2 : (⟨S2048x2048x5, .i32⟩ : BufTy).Contents (Elt F) → (⟨S2048x2048x5x1, .i32⟩ : BufTy).Contents (Elt F)),
    unary main_v16 main_v18 (broadcastInDim S2048x2048x5x1 ![0, 1, 2] bcast_S2048x2048x5_S2048x2048x5x1_0_1_2 : (⟨S2048x2048x5, .i32⟩ : BufTy).Contents (Elt F) → (⟨S2048x2048x5x1, .i32⟩ : BufTy).Contents (Elt F)),
    binary main_v17 main_v18 main_v19 ((fun a b => concatenate S2048x2048x5x2 3 [⟨S2048x2048x5x1, a⟩, ⟨S2048x2048x5x1, b⟩] concatenates_S2048x2048x5x1_S2048x2048x5x1_S2048x2048x5x2_d3) : (⟨S2048x2048x5x1, .i32⟩ : BufTy).Contents (Elt F) → (⟨S2048x2048x5x1, .i32⟩ : BufTy).Contents (Elt F) → (⟨S2048x2048x5x2, .i32⟩ : BufTy).Contents (Elt F)),
    binary main_v0 main_v19 main_v20 ((fun x i => Host.gather gather_S65536x5_S2048x2048x5x2_S2048x2048x5_n_01_n_n_01_3_11 x i) : (⟨S65536x5, .f32⟩ : BufTy).Contents (Elt F) → (⟨S2048x2048x5x2, .i32⟩ : BufTy).Contents (Elt F) → (⟨S2048x2048x5, .f32⟩ : BufTy).Contents (Elt F)),
    unary main_v2 main_v21 (uitofp .f32 : (⟨S2048x2048x5, .i1⟩ : BufTy).Contents (Elt F) → (⟨S2048x2048x5, .f32⟩ : BufTy).Contents (Elt F)),
    binary main_v20 main_v21 main_v22 (mulf : (⟨S2048x2048x5, .f32⟩ : BufTy).Contents (Elt F) → (⟨S2048x2048x5, .f32⟩ : BufTy).Contents (Elt F) → (⟨S2048x2048x5, .f32⟩ : BufTy).Contents (Elt F)) ]

/-- The sum over the positions, the length as a float plus 1e-10, the quotient, and 0 where the length is not positive. -/
abbrev opsQuotient : List (HloOp τ sig (Elt F)) :=
  [ nullary main_cst (constant S_ .f32 0x00000000#32),
    binary main_v22 main_cst main_v23 ((fun x v => Host.reduceAdd x v reducesTo_S2048x2048x5_S2048x2048_d2 h_S_) : (⟨S2048x2048x5, .f32⟩ : BufTy).Contents (Elt F) → (⟨S_, .f32⟩ : BufTy).Contents (Elt F) → (⟨S2048x2048, .f32⟩ : BufTy).Contents (Elt F)),
    unary main_arg4 main_v24 (sitofp .f32 : (⟨S2048x2048, .i32⟩ : BufTy).Contents (Elt F) → (⟨S2048x2048, .f32⟩ : BufTy).Contents (Elt F)),
    nullary main_c_5 (constantI S_ 32 0#32),
    unary main_c_5 main_v25 (broadcastInDim S2048x2048 ![] bcast_S_S2048x2048 : (⟨S_, .i32⟩ : BufTy).Contents (Elt F) → (⟨S2048x2048, .i32⟩ : BufTy).Contents (Elt F)),
    binary main_arg4 main_v25 main_v26 (cmpi .sgt : (⟨S2048x2048, .i32⟩ : BufTy).Contents (Elt F) → (⟨S2048x2048, .i32⟩ : BufTy).Contents (Elt F) → (⟨S2048x2048, .i1⟩ : BufTy).Contents (Elt F)),
    nullary main_cst_6 (constant S_ .f32 0x2EDBE6FF#32),
    unary main_cst_6 main_v27 (broadcastInDim S2048x2048 ![] bcast_S_S2048x2048 : (⟨S_, .f32⟩ : BufTy).Contents (Elt F) → (⟨S2048x2048, .f32⟩ : BufTy).Contents (Elt F)),
    binary main_v24 main_v27 main_v28 (addf : (⟨S2048x2048, .f32⟩ : BufTy).Contents (Elt F) → (⟨S2048x2048, .f32⟩ : BufTy).Contents (Elt F) → (⟨S2048x2048, .f32⟩ : BufTy).Contents (Elt F)),
    binary main_v23 main_v28 main_v29 (Host.divf : (⟨S2048x2048, .f32⟩ : BufTy).Contents (Elt F) → (⟨S2048x2048, .f32⟩ : BufTy).Contents (Elt F) → (⟨S2048x2048, .f32⟩ : BufTy).Contents (Elt F)),
    nullary main_cst_7 (constant S_ .f32 0x00000000#32),
    unary main_cst_7 main_v30 (broadcastInDim S2048x2048 ![] bcast_S_S2048x2048 : (⟨S_, .f32⟩ : BufTy).Contents (Elt F) → (⟨S2048x2048, .f32⟩ : BufTy).Contents (Elt F)),
    TRef.ternary (.of main_v26 : TRef sig ⟨S2048x2048, .i1⟩) (.of main_v29 : TRef sig ⟨S2048x2048, .f32⟩) (.of main_v30 : TRef sig ⟨S2048x2048, .f32⟩) main_call1.v0 select ]

/-- The NaN test (dead on the extended reals) and the two replacements of an infinity by the extreme finite value. -/
abbrev opsClean : List (HloOp τ sig (Elt F)) :=
  [ TRef.binary (.of main_v31 : TRef sig ⟨S2048x2048, .f32⟩) (.of main_v31 : TRef sig ⟨S2048x2048, .f32⟩) main_call2.v0 (cmpf .une),
    TRef.nullary main_call2.cst (constant S_ .f32 0x00000000#32),
    TRef.unary main_call2.cst main_call2.call0.v0 (broadcastInDim S2048x2048 ![] bcast_S_S2048x2048),
    TRef.ternary main_call2.v0 main_call2.call0.v0 (.of main_v31 : TRef sig ⟨S2048x2048, .f32⟩) main_call2.call0.v1 select,
    TRef.nullary main_call2.cst_0 (constant S_ .f32 0x7F800000#32),
    TRef.unary main_call2.cst_0 main_call2.v2 (broadcastInDim S2048x2048 ![] bcast_S_S2048x2048),
    TRef.binary main_call2.call0.v1 main_call2.v2 main_call2.v3 (cmpf .oeq),
    TRef.nullary main_call2.cst_1 (constant S_ .f32 0x7F7FFFFF#32),
    TRef.unary main_call2.cst_1 main_call2.call1.v0 (broadcastInDim S2048x2048 ![] bcast_S_S2048x2048),
    TRef.ternary main_call2.v3 main_call2.call1.v0 main_call2.call0.v1 main_call2.call1.v1 select,
    TRef.nullary main_call2.cst_2 (constant S_ .f32 0xFF800000#32),
    TRef.unary main_call2.cst_2 main_call2.v5 (broadcastInDim S2048x2048 ![] bcast_S_S2048x2048),
    TRef.binary main_call2.call1.v1 main_call2.v5 main_call2.v6 (cmpf .oeq),
    TRef.nullary main_call2.cst_3 (constant S_ .f32 0xFF7FFFFF#32),
    TRef.unary main_call2.cst_3 main_call2.call2.v0 (broadcastInDim S2048x2048 ![] bcast_S_S2048x2048),
    TRef.ternary main_call2.v6 main_call2.call2.v0 main_call2.call1.v1 main_call2.call2.v1 select ]

/-- @main's sixty operations, in order. -/
abbrev ops : List (HloOp τ sig (Elt F)) := opsGather ++ (opsQuotient ++ opsClean)

set_option maxRecDepth 4096 in
/-- @main is that straight line: the functions' definitions unfolded at their calls, both sides one chain of `hlo` steps. -/
theorem main_eq (c : Dev nD) : main (F := F) c = seq ops := by
  simp only [main, fn_where.body, fn_where_0.body, fn_where_1.body, fn_nan_to_num.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsGather_sub : (opsGather : List (HloOp τ sig (Elt F))).Forall fun op => op.bufs ⊆ tcRefs τ sig :=
  ⟨binary_bufs_sub .., nullary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., unary_bufs_sub .., binary_bufs_sub .., binary_bufs_sub .., unary_bufs_sub ..,
    binary_bufs_sub ..⟩
theorem opsQuotient_sub : (opsQuotient : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., unary_bufs_sub .., binary_bufs_sub .., binary_bufs_sub .., nullary_bufs_sub .., unary_bufs_sub ..,
    ternary_bufs_sub ..⟩
theorem opsClean_sub : (opsClean : List (HloOp τ sig (Elt F))).Forall fun op => op.bufs ⊆ tcRefs τ sig :=
  ⟨binary_bufs_sub .., nullary_bufs_sub .., unary_bufs_sub .., ternary_bufs_sub .., nullary_bufs_sub .., unary_bufs_sub ..,
    binary_bufs_sub .., nullary_bufs_sub .., unary_bufs_sub .., ternary_bufs_sub .., nullary_bufs_sub .., unary_bufs_sub ..,
    binary_bufs_sub .., nullary_bufs_sub .., unary_bufs_sub .., ternary_bufs_sub ..⟩

theorem ops_sub : (ops : List (HloOp τ sig (Elt F))).Forall fun op => op.bufs ⊆ tcRefs τ sig :=
  List.forall_iff_forall_mem.mpr fun op h => by
    rcases List.mem_append.mp h with h | h
    · exact List.forall_iff_forall_mem.mp opsGather_sub op h
    rcases List.mem_append.mp h with h | h
    · exact List.forall_iff_forall_mem.mp opsQuotient_sub op h
    · exact List.forall_iff_forall_mem.mp opsClean_sub op h

/-- The contents after two stretches in a row are the second stretch's from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- From any memory with zero counters every weakly fair execution of @main terminates, each buffer at the three
    stretches' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsClean (after opsQuotient (after opsGather (launchContents m c))) (Proc.devRef .tc b) :=
  (θ_run defs _ _).mono (fun _ h c b => by rw [h c b, after_append, after_append])
    (run_seq scopedRefs_eq scopedSems_eq defs main (fun _ => ops) main_eq (fun _ => ops_sub) m ρ)

end Cert.ReferenceIdeal.Straight

end
-- ==== Proof.RefValue.lean ====
/-
  The reference's three stretches read at the one value each hands on, and its result as `PathScore.score`.

  From any contents `V`: the first stretch leaves at the masked scores' buffer the shared chain `PathScore.masked` of its
  dot products and of the paths; the second, element by element, the quotient `PathScore.quot` of the sum over the
  five positions and the length; the third `PathScore.clean` of that.  The host's `dot_general` at (e, l) is the sum
  over the 64 features, and its sum over the last axis at (i, j) is 0 plus the five entries (i, j, l).
-/
import proofs.«139843_j72894184947752_2_alg».proof.Proof.RefStraight
import proofs.«139843_j72894184947752_2_alg».proof.Proof.PathScore
import Idealize.ShloMosaic.Lib.ValueIdx
import Idealize.ShloMosaic.PureOps.Ideal.Laws

noncomputable section

namespace Cert.ReferenceIdeal.Straight

open Cert.ReferenceIdeal Cert.ReferenceIdeal.Gen Idealize.ShloMosaic Idealize.ShloMosaic.TcCoe Idealize.SL.Sem Idealize.ShloMosaic.StableHlo
open Idealize.ShloMosaic.ValueIdx

/-! ## The dot products -/

abbrev DR : DotDims S65536x64 S5x64 S65536x5 := dot_S65536x64_S5x64_S65536x5_1_1_0_0_n_n

theorem lhs_row (j : S65536x5.Idx) (k : DR.contr.Idx) : (DR.lhsIdx j k 0 : ℕ) = j 0 := by
  simp [DotDims.lhsIdx, DR, dot_S65536x64_S5x64_S65536x5_1_1_0_0_n_n]; rfl
theorem lhs_col (j : S65536x5.Idx) (k : DR.contr.Idx) : (DR.lhsIdx j k 1 : ℕ) = k ⟨0, by decide⟩ := by
  simp [DotDims.lhsIdx, DR, dot_S65536x64_S5x64_S65536x5_1_1_0_0_n_n]; rfl
theorem rhs_row (j : S65536x5.Idx) (k : DR.contr.Idx) : (DR.rhsIdx j k 0 : ℕ) = j 1 := by
  simp [DotDims.rhsIdx, DR, dot_S65536x64_S5x64_S65536x5_1_1_0_0_n_n]; rfl
theorem rhs_col (j : S65536x5.Idx) (k : DR.contr.Idx) : (DR.rhsIdx j k 1 : ℕ) = k ⟨0, by decide⟩ := by
  simp [DotDims.rhsIdx, DR, dot_S65536x64_S5x64_S65536x5_1_1_0_0_n_n]; rfl

def contr64 : DR.contr.Idx ≃ Fin 64 := contrEquiv1 DR 64 rfl rfl

/-- The host's product of the features with the position vectors is `PathScore.dots`. -/
theorem dot_eq (attr : FVec Ideal S65536x64 .f32) (vec : FVec Ideal S5x64 .f32) :
    Host.dotGeneral DR none attr vec = PathScore.dots attr vec := by
  funext j
  unfold PathScore.dots
  refine (Ideal.dotGeneral_apply DR none _ attr vec j).trans ?_
  rw [← Equiv.sum_comp contr64.symm]
  refine Finset.sum_congr rfl fun k _ => ?_
  have hk : ((contr64.symm k) ⟨0, by decide⟩ : ℕ) = k.val := contrEquiv1_symm_val DR 64 rfl rfl k
  have hl : DR.lhsIdx j (contr64.symm k) = ix2 (j 0) k := by
    funext a; apply Fin.ext
    match a with
    | ⟨0, _⟩ => exact lhs_row _ _
    | ⟨1, _⟩ => exact (lhs_col _ _).trans hk
  have hr : DR.rhsIdx j (contr64.symm k) = ix2 (j 1) k := by
    funext a; apply Fin.ext
    match a with
    | ⟨0, _⟩ => exact rhs_row _ _
    | ⟨1, _⟩ => exact (rhs_col _ _).trans hk
  rw [hl, hr]
  rfl

/-! ## The three stretches -/

/-- A scalar float constant as a [2048, 2048] array. -/
abbrev splat (b : BitVec 32) : FVec Ideal S2048x2048 .f32 :=
  broadcastInDim S2048x2048 ![] bcast_S_S2048x2048 (constant (F := Ideal) S_ .f32 b)

/-- The second stretch as one function of the masked scores and the lengths. -/
def quotVec (x : FVec Ideal S2048x2048x5 .f32) (n : IVec S2048x2048 32) : FVec Ideal S2048x2048 .f32 :=
  select (cmpi .sgt n (broadcastInDim S2048x2048 ![] bcast_S_S2048x2048 (constantI S_ 32 0#32)))
    (Host.divf (Host.reduceAdd x (constant (F := Ideal) S_ .f32 0x00000000#32) reducesTo_S2048x2048x5_S2048x2048_d2 h_S_)
      (addf (sitofp .f32 n) (splat 0x2EDBE6FF#32)))
    (splat 0x00000000#32)

/-- The third stretch as one function of the selected quotient. -/
def cleanVec (y : FVec Ideal S2048x2048 .f32) : FVec Ideal S2048x2048 .f32 :=
  let a : FVec Ideal S2048x2048 .f32 := select (cmpf .une y y) (splat 0x00000000#32) y
  let b : FVec Ideal S2048x2048 .f32 := select (cmpf .oeq a (splat 0x7F800000#32)) (splat 0x7F7FFFFF#32) a
  select (cmpf .oeq b (splat 0xFF800000#32)) (splat 0xFF7FFFFF#32) b

variable (V : Valuation τ sig (Elt Ideal))

/-- The masked scores after the first stretch. -/
theorem gather_result :
    after opsGather V (Proc.devRef .tc main_v22)
      = PathScore.masked (Host.dotGeneral (φ₁ := .f32) (φ₂ := .f32) DR none (V (Proc.devRef .tc main_arg1)) (V (Proc.devRef .tc main_arg2))) (V (Proc.devRef .tc main_arg3)) := by
  after_results_simp
  rfl

/-- The first stretch does not write the lengths. -/
theorem gather_keeps_len : after opsGather V (Proc.devRef .tc main_arg4) = V (Proc.devRef .tc main_arg4) := by
  after_results_simp

/-- The selected quotient after the second stretch. -/
theorem quotient_result :
    after opsQuotient V (Proc.devRef .tc main_v31) = quotVec (V (Proc.devRef .tc main_v22)) (V (Proc.devRef .tc main_arg4)) := by
  after_results_simp
  rfl

/-- The result after the third stretch. -/
theorem clean_result : after opsClean V (Proc.devRef .tc main_v32) = cleanVec (V (Proc.devRef .tc main_v31)) := by
  after_results_simp
  rfl

theorem sum_last : S2048x2048x5.Reduces [2] S2048x2048 := by decide

/-- The second stretch at one node pair: the quotient of the sum over the five positions. -/
theorem quotVec_apply (x : FVec Ideal S2048x2048x5 .f32) (n : IVec S2048x2048 32) (p q : Fin 2048) :
    quotVec x n (ix2 p q) = PathScore.quot (∑ l : Fin 5, x (ix3 p q l)) (n (ix2 p q)) := by
  have hsum : Host.reduceAdd x (constant (F := Ideal) S_ .f32 0x00000000#32) reducesTo_S2048x2048x5_S2048x2048_d2 h_S_ (ix2 p q)
      = ∑ l : Fin 5, x (ix3 p q l) := by
    refine (Ideal.hostReduceAdd_single reducesTo_S2048x2048x5_S2048x2048_d2 sum_last x _ (ix2 p q)).trans ?_
    show Ideal.ofBits .f32 0x00000000#32 + _ = _
    rw [Ideal.ofBits_zero_f32, zero_add]
    refine Finset.sum_congr rfl fun l _ => congrArg x (funext fun a => Fin.ext ?_)
    match a with
    | ⟨0, _⟩ => rfl
    | ⟨1, _⟩ => rfl
    | ⟨2, _⟩ => rfl
  rw [← hsum]
  rfl

/-- The third stretch at one element. -/
theorem cleanVec_apply (y : FVec Ideal S2048x2048 .f32) (i : S2048x2048.Idx) : cleanVec y i = PathScore.clean (y i) := rfl

/-! ## The result -/

/-- After the three stretches from contents `V`, the result buffer holds `PathScore.score` of the masked chain of the
    dot products and of the lengths. -/
theorem result_eq :
    after opsClean (after opsQuotient (after opsGather V)) (Proc.devRef .tc main_v32)
      = PathScore.score (PathScore.masked (PathScore.dots (V (Proc.devRef .tc main_arg1)) (V (Proc.devRef .tc main_arg2))) (V (Proc.devRef .tc main_arg3)))
          (V (Proc.devRef .tc main_arg4)) := by
  funext i
  obtain ⟨p, q, rfl⟩ : ∃ (p q : Fin 2048), i = ix2 p q := ⟨i 0, i 1, eq_ix2 i⟩
  rw [clean_result, cleanVec_apply, quotient_result, quotVec_apply, gather_result, gather_keeps_len, dot_eq]
  rfl

/-- No stretch writes an argument. -/
theorem keeps_arg0 : after opsClean (after opsQuotient (after opsGather V)) (Proc.devRef .tc main_arg0) = V (Proc.devRef .tc main_arg0) := by
  after_results_simp
theorem keeps_arg1 : after opsClean (after opsQuotient (after opsGather V)) (Proc.devRef .tc main_arg1) = V (Proc.devRef .tc main_arg1) := by
  after_results_simp
theorem keeps_arg2 : after opsClean (after opsQuotient (after opsGather V)) (Proc.devRef .tc main_arg2) = V (Proc.devRef .tc main_arg2) := by
  after_results_simp
theorem keeps_arg3 : after opsClean (after opsQuotient (after opsGather V)) (Proc.devRef .tc main_arg3) = V (Proc.devRef .tc main_arg3) := by
  after_results_simp
theorem keeps_arg4 : after opsClean (after opsQuotient (after opsGather V)) (Proc.devRef .tc main_arg4) = V (Proc.devRef .tc main_arg4) := by
  after_results_simp

/-- The reference's run, read: it terminates with the result at `PathScore.score` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32)
        = PathScore.score (PathScore.masked (PathScore.dots (m ((c.tc : Thread nD τ).loc main_arg1)) (m ((c.tc : Thread nD τ).loc main_arg2)))
            (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v32).trans (result_eq (launchContents m c)),
       (h c main_arg0).trans (keeps_arg0 (launchContents m c)),
       (h c main_arg1).trans (keeps_arg1 (launchContents m c)),
       (h c main_arg2).trans (keeps_arg2 (launchContents m c)),
       (h c main_arg3).trans (keeps_arg3 (launchContents m c)),
       (h c main_arg4).trans (keeps_arg4 (launchContents m c))⟩)
    (run_main m ρ)

end Cert.ReferenceIdeal.Straight

end
-- ==== Proof.lean ====
/-
  The certificate of the path-score kernel against its reference.

  Both programs compute, for every node pair (i, j), the normalized sum over the five path positions of the masked,
  gathered dot products (`Cert.PathScore.score`).  The kernel forms the dot products in a first pallas_call (a matrix
  product into a zero accumulator, exactly the host's `dot_general` on exact values), runs the same host chain of index
  arithmetic, gather and mask as the reference, transposes the result so that the positions lead, and in a second
  pallas_call sums over the leading axis and normalizes; the reference sums over the last axis and normalizes with the
  same element-by-element operations.  A sum of five extended reals does not depend on which axis carries the five,
  so the two results agree on every input, finite or not: the precondition is not used.

  The three frames: the two kernels' are the generated ones; the reference's is its run with the result dropped.
  `preserves` has no conjunct (the idealization rewrote nothing).
-/
import proofs.«139843_j72894184947752_2_alg».proof.Defs
import proofs.«139843_j72894184947752_2_alg».proof.Proof.Gen.Kernel
import proofs.«139843_j72894184947752_2_alg».proof.Proof.Gen.Kernel.Skeleton
import proofs.«139843_j72894184947752_2_alg».proof.Proof.Gen.Kernel.Launch
import proofs.«139843_j72894184947752_2_alg».proof.Proof.Gen.Kernel.Points
import proofs.«139843_j72894184947752_2_alg».proof.Proof.Gen.Kernel.Frame
import proofs.«139843_j72894184947752_2_alg».proof.Proof.Gen.KernelIdeal
import proofs.«139843_j72894184947752_2_alg».proof.Proof.Gen.KernelIdeal.Skeleton
import proofs.«139843_j72894184947752_2_alg».proof.Proof.Gen.KernelIdeal.Launch
import proofs.«139843_j72894184947752_2_alg».proof.Proof.Gen.KernelIdeal.Points
import proofs.«139843_j72894184947752_2_alg».proof.Proof.Gen.KernelIdeal.Frame
import proofs.«139843_j72894184947752_2_alg».proof.Proof.Gen.ReferenceIdeal
import proofs.«139843_j72894184947752_2_alg».proof.Proof.Gen.Pre_finite_inputs
import proofs.«139843_j72894184947752_2_alg».proof.Proof.KernelValue
import proofs.«139843_j72894184947752_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps the arguments. -/
theorem frame_referenceIdeal : Cert.frame_ReferenceIdeal := fun m ρ _ =>
  (θ_run Cert.ReferenceIdeal.defs _ _).mono (fun _ h c => (h c).2) (Cert.ReferenceIdeal.Straight.run m ρ)

/-- The two idealized programs end with one result: `PathScore.score` of arguments that agree. -/
theorem algebraic : Cert.algebraic_KernelIdeal_ReferenceIdeal := by
  intro m ρ m' ρ' _ hagree
  refine ⟨_, Cert.KernelIdeal.Named.run m ρ, ?_⟩
  refine (θ_run Cert.ReferenceIdeal.defs _ _).mono (fun _ h c => ⟨(h c).1.trans ?_, (h c).2⟩)
    (Cert.ReferenceIdeal.Straight.run m' ρ')
  rw [(hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
